-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S4 : Shape := ⟨1, ![4]⟩
abbrev S8 : Shape := ⟨1, ![8]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S4 : S_.BroadcastsInDim S4 (![] : Fin 0 → Fin S4.rank)
  reducesTo_S4_S_d0 : S4.ReducesTo [0] S_
  bcast_S_S8 : S_.BroadcastsInDim S8 (![] : Fin 0 → Fin S8.rank)
  reducesTo_S8_S_d0 : S8.ReducesTo [0] S_

variable [Facts]

def fn {F : FTy → Type} [FloatOps F] (main_arg0 : FVec F S65536x784 .f32) (main_arg1 : FVec F S4 .f32) (main_arg2 : FVec F S8 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S65536x784 : Shape := ⟨2, ![65536, 784]⟩
abbrev S4 : Shape := ⟨1, ![4]⟩
abbrev S8 : Shape := ⟨1, ![8]⟩
abbrev S1 : Shape := ⟨1, ![1]⟩
abbrev S_ : Shape := ⟨0, ![]⟩
abbrev S3 : Shape := ⟨1, ![3]⟩
abbrev S1x4 : Shape := ⟨2, ![1, 4]⟩
abbrev S256x4 : Shape := ⟨2, ![256, 4]⟩
abbrev S1024 : Shape := ⟨1, ![1024]⟩
abbrev S1x1024 : Shape := ⟨2, ![1, 1024]⟩
abbrev S50176x1024 : Shape := ⟨2, ![50176, 1024]⟩
abbrev S6272x1024 : Shape := ⟨2, ![6272, 1024]⟩

abbrev nBuf : Space → Nat
  | .hbm => 20
  | .vmem => 3
  | .smem => 0
  | _ => 0

abbrev bufTy : (tb : Table) → Fin (tcTables nBuf tb) → BufTy
  | .hbm, ⟨0, _⟩ => ⟨S65536x784, .f32⟩
  | .hbm, ⟨1, _⟩ => ⟨S4, .f32⟩
  | .hbm, ⟨2, _⟩ => ⟨S8, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S3, .f32⟩
  | .hbm, ⟨12, _⟩ => ⟨S3, .f32⟩
  | .hbm, ⟨13, _⟩ => ⟨S4, .f32⟩
  | .hbm, ⟨14, _⟩ => ⟨S1x4, .f32⟩
  | .hbm, ⟨15, _⟩ => ⟨S256x4, .f32⟩
  | .hbm, ⟨16, _⟩ => ⟨S1024, .f32⟩
  | .hbm, ⟨17, _⟩ => ⟨S1x1024, .f32⟩
  | .hbm, ⟨18, _⟩ => ⟨S50176x1024, .f32⟩
  | .hbm, ⟨19, _⟩ => ⟨S65536x784, .f32⟩
  | .local _ .vmem, ⟨0, _⟩ => ⟨S1x1024, .f32⟩
  | .local _ .vmem, ⟨1, _⟩ => ⟨S6272x1024, .f32⟩
  | .local _ .vmem, ⟨2, _⟩ => ⟨S6272x1024, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S4_S1_0 : S4.Slices ![0] S1
  shapeCasts_S1_S_ : S1.ShapeCasts S_
  reducesTo_S8_S_d0 : S8.ReducesTo [0] S_
  h_S_ : 0 < S_.numel
  bcast_S_S1 : S_.BroadcastsInDim S1 (![] : Fin 0 → Fin S1.rank)
  slices_S4_S3_1 : S4.Slices ![1] S3
  concatenates_S1_S3_S4_d0 : Shape.Concatenates [S1, S3] S4 0
  shapeCasts_S4_S1x4 : S4.ShapeCasts S1x4
  bcast_S1x4_S256x4_0_1 : S1x4.BroadcastsInDim S256x4 (![0, 1] : Fin 2 → Fin S256x4.rank)
  shapeCasts_S256x4_S1024 : S256x4.ShapeCasts S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S6272x1024 : S1x1024.Broadcasts S6272x1024
  inb_S6272x1024_S6272x1024_0_0 : ∀ a, (![0, 0] : Fin 2 → Nat) a + S6272x1024.size a ≤ S6272x1024.size a
  h_S6272x1024 : 0 < S6272x1024.numel
  shapeCasts_S50176x1024_S65536x784 : S50176x1024.ShapeCasts S65536x784
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6272x1024.size a ≤ S50176x1024.size a
  hwx0_1 : ∀ i : grid0.Coords, EltTy.bits .f32 = 32 ∨ (Rect.block (s := S50176x1024) S6272x1024.size (cc0_transform_1 i) (hinb0_1 i)).WholeWords (EltTy.packing .f32)

variable [Facts₀]

abbrev win0_0 : Pipeline.Window sig grid0 :=
  Pipeline.Window.ofSpec (Memref.whole main_v13) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6272x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x784 : Shape := ⟨2, ![65536, 784]⟩
abbrev S4 : Shape := ⟨1, ![4]⟩
abbrev S8 : Shape := ⟨1, ![8]⟩
abbrev S1 : Shape := ⟨1, ![1]⟩
abbrev S_ : Shape := ⟨0, ![]⟩
abbrev S3 : Shape := ⟨1, ![3]⟩
abbrev S1x4 : Shape := ⟨2, ![1, 4]⟩
abbrev S196x4 : Shape := ⟨2, ![196, 4]⟩
abbrev S784 : Shape := ⟨1, ![784]⟩
abbrev S1x784 : Shape := ⟨2, ![1, 784]⟩

abbrev nBuf : Space → Nat
  | .hbm => 19
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S4, .f32⟩
  | .hbm, ⟨2, _⟩ => ⟨S8, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S3, .f32⟩
  | .hbm, ⟨12, _⟩ => ⟨S3, .f32⟩
  | .hbm, ⟨13, _⟩ => ⟨S4, .f32⟩
  | .hbm, ⟨14, _⟩ => ⟨S1x4, .f32⟩
  | .hbm, ⟨15, _⟩ => ⟨S196x4, .f32⟩
  | .hbm, ⟨16, _⟩ => ⟨S784, .f32⟩
  | .hbm, ⟨17, _⟩ => ⟨S1x784, .f32⟩
  | .hbm, ⟨18, _⟩ => ⟨S65536x784, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  slices_S4_S1_0 : S4.Slices ![0] S1
  shapeCasts_S1_S_ : S1.ShapeCasts S_
  reducesTo_S8_S_d0 : S8.ReducesTo [0] S_
  h_S_ : 0 < S_.numel
  bcast_S_S1 : S_.BroadcastsInDim S1 (![] : Fin 0 → Fin S1.rank)
  slices_S4_S3_1 : S4.Slices ![1] S3
  concatenates_S1_S3_S4_d0 : Shape.Concatenates [S1, S3] S4 0
  shapeCasts_S4_S1x4 : S4.ShapeCasts S1x4
  bcast_S1x4_S196x4_0_1 : S1x4.BroadcastsInDim S196x4 (![0, 1] : Fin 2 → Fin S196x4.rank)
  shapeCasts_S196x4_S784 : S196x4.ShapeCasts S784
  bcast_S784_S1x784_1 : S784.BroadcastsInDim S1x784 (![1] : Fin 1 → Fin S1x784.rank)
  bcast_S1x784_S65536x784_0_1 : S1x784.BroadcastsInDim S65536x784 (![0, 1] : Fin 2 → Fin S65536x784.rank)

variable [Facts₀]

class Facts : Prop extends Facts₀ where

variable [Facts]
-- ==== Proof.Tile.lean ====
/-
  A vector of four numbers repeated with period four, in the three arrangements this certificate meets.

  Fix a four-vector `v`.  The RESULT of both programs is the array `tile v` of shape [65536, 784] whose entry
  `(r, c)` is `v (c mod 4)`: every row is `v` written 196 times.  The kernel reaches it through the flat
  arrangement of the same 51 380 224 numbers as [50176, 1024]: one template row `row v` of length 1024
  (`v` written 256 times) copied to every one of the 50176 rows (`rows`), and then re-read row-major as
  [65536, 784].  Entry `(r, c)` of the re-read array sits at flat position `784 r + c`, that is in column
  `(784 r + c) mod 1024` of the flat arrangement, and holds `v` at `((784 r + c) mod 1024) mod 4 = c mod 4`,
  because 4 divides both 1024 and 784.  Nothing here is arithmetic on the entries: every statement holds for
  entries of any type.
-/
import Idealize.ShloMosaic.Lib.Pipeline.Value
import Idealize.ShloMosaic.Lib.ValueIdx
import Idealize.ShloMosaic.Lib.ValueLayout

namespace Cert.Tile

open Idealize.ShloMosaic Idealize.ShloMosaic.ValueIdx

variable {α : Type}

/-- The residue of a column number modulo four, as a position in the four-vector. -/
def lane (n : Nat) : Fin 4 := ⟨n % 4, Nat.mod_lt n (by decide)⟩

/-- The result: entry `(r, c)` is `v (c mod 4)`. -/
def tile (v : (⟨1, ![4]⟩ : Shape).Idx → α) : (⟨2, ![65536, 784]⟩ : Shape).Idx → α :=
  fun i => v (ix1 (lane (i 1).val))

/-- The template row of length 1024: entry `l` is `v (l mod 4)`. -/
def row (v : (⟨1, ![4]⟩ : Shape).Idx → α) : (⟨2, ![1, 1024]⟩ : Shape).Idx → α :=
  fun l => v (ix1 (lane (l 1).val))

/-- One row of length 1024 copied to each of 50176 rows. -/
def rows (x : (⟨2, ![1, 1024]⟩ : Shape).Idx → α) : (⟨2, ![50176, 1024]⟩ : Shape).Idx → α :=
  fun i => x (ix2 (0 : Fin 1) (i 1))

/-- The template row as the host builds it: `v` as a [1, 4] array, repeated down 256 rows, re-read row-major as
    1024 numbers (entry `l` comes from row `l / 4`, column `l mod 4`), then given a leading unit axis. -/
theorem template_eq (v : (⟨1, ![4]⟩ : Shape).Idx → α)
    (h1 : (⟨1, ![4]⟩ : Shape).ShapeCasts ⟨2, ![1, 4]⟩)
    (h2 : (⟨2, ![1, 4]⟩ : Shape).BroadcastsInDim ⟨2, ![256, 4]⟩ (![0, 1] : Fin 2 → Fin 2))
    (h3 : (⟨2, ![256, 4]⟩ : Shape).ShapeCasts ⟨1, ![1024]⟩)
    (h4 : (⟨1, ![1024]⟩ : Shape).ShapeCasts ⟨2, ![1, 1024]⟩) :
    shapeCast ⟨2, ![1, 1024]⟩ (shapeCast ⟨1, ![1024]⟩
      (broadcastInDim ⟨2, ![256, 4]⟩ ![0, 1] h2 (shapeCast ⟨2, ![1, 4]⟩ v h1)) h3) h4 = row v := by
  funext l
  obtain ⟨u, q, rfl⟩ : ∃ (u : Fin 1) (q : Fin 1024), l = ix2 u q := ⟨l 0, l 1, eq_ix2 l⟩
  have hq : q.val < 1024 := q.isLt
  rw [shapeCast_a_1a_apply]
  refine (shapeCast_apply _ h3 (ix1 q) (ix2 (⟨q.val / 4, by omega⟩ : Fin 256) (lane q.val)) ?_).trans ?_
  · rewrite [Shape.rowMajor_val_two, Shape.rowMajor_val_one]
    show q.val / 4 * 4 + q.val % 4 = q.val
    omega
  refine (broadcastInDim_apply _ h2 _ _ (ix2 (0 : Fin 1) (lane q.val)) (fun a => match a with
    | ⟨0, _⟩ => by show 0 = if (1 : Nat) = 1 then 0 else q.val / 4; rw [if_pos rfl]
    | ⟨1, _⟩ => by show q.val % 4 = if (4 : Nat) = 1 then 0 else q.val % 4; rw [if_neg (by decide)])).trans ?_
  exact shapeCast_a_1a_apply v h1 0 (lane q.val)

/-- What the kernel stores at a grid point: its one loaded row, through two shape casts that change nothing,
    copied to each of the 6272 rows of the block. -/
theorem block_apply (x : (⟨2, ![1, 1024]⟩ : Shape).Idx → α)
    (h0 : (⟨2, ![1, 1024]⟩ : Shape).ShapeCasts ⟨2, ![1, 1024]⟩)
    (hb : (⟨2, ![1, 1024]⟩ : Shape).Broadcasts ⟨2, ![6272, 1024]⟩)
    (j : (⟨2, ![6272, 1024]⟩ : Shape).Idx) :
    broadcastTo ⟨2, ![6272, 1024]⟩ (shapeCast ⟨2, ![1, 1024]⟩ (shapeCast ⟨2, ![1, 1024]⟩ x h0) h0) hb j
      = x (ix2 (0 : Fin 1) (j 1)) := by
  rw [shapeCast_self, shapeCast_self]
  obtain ⟨p, q, rfl⟩ : ∃ (p : Fin 6272) (q : Fin 1024), j = ix2 p q := ⟨j 0, j 1, eq_ix2 j⟩
  exact broadcastTo_1b_ab_apply x hb p q

/-- The flat arrangement re-read row-major as [65536, 784] is the result: 4 divides 784 and 1024. -/
theorem unflatten_eq (v : (⟨1, ![4]⟩ : Shape).Idx → α)
    (h : (⟨2, ![50176, 1024]⟩ : Shape).ShapeCasts ⟨2, ![65536, 784]⟩) :
    shapeCast ⟨2, ![65536, 784]⟩ (rows (row v)) h = tile v := by
  funext i
  obtain ⟨r, c, rfl⟩ : ∃ (r : Fin 65536) (c : Fin 784), i = ix2 r c := ⟨i 0, i 1, eq_ix2 i⟩
  have hr : r.val < 65536 := r.isLt
  have hc : c.val < 784 := c.isLt
  refine (shapeCast_apply _ h (ix2 r c)
    (ix2 (⟨(r.val * 784 + c.val) / 1024, by omega⟩ : Fin 50176) (⟨(r.val * 784 + c.val) % 1024, by omega⟩ : Fin 1024)) ?_).trans ?_
  · rewrite [Shape.rowMajor_val_two, Shape.rowMajor_val_two]
    show (r.val * 784 + c.val) / 1024 * 1024 + (r.val * 784 + c.val) % 1024 = r.val * 784 + c.val
    omega
  show v (ix1 (lane ((r.val * 784 + c.val) % 1024))) = v (ix1 (lane c.val))
  refine congrArg (fun a => v (ix1 a)) (Fin.ext ?_)
  show (r.val * 784 + c.val) % 1024 % 4 = c.val % 4
  omega

/-- The reference's arrangement: `v` as a [1, 4] array, repeated down 196 rows, re-read row-major as 784 numbers,
    given a leading unit axis and repeated down 65536 rows. -/
theorem reference_eq (v : (⟨1, ![4]⟩ : Shape).Idx → α)
    (h1 : (⟨1, ![4]⟩ : Shape).ShapeCasts ⟨2, ![1, 4]⟩)
    (h2 : (⟨2, ![1, 4]⟩ : Shape).BroadcastsInDim ⟨2, ![196, 4]⟩ (![0, 1] : Fin 2 → Fin 2))
    (h3 : (⟨2, ![196, 4]⟩ : Shape).ShapeCasts ⟨1, ![784]⟩)
    (h4 : (⟨1, ![784]⟩ : Shape).BroadcastsInDim ⟨2, ![1, 784]⟩ (![1] : Fin 1 → Fin 2))
    (h5 : (⟨2, ![1, 784]⟩ : Shape).BroadcastsInDim ⟨2, ![65536, 784]⟩ (![0, 1] : Fin 2 → Fin 2)) :
    broadcastInDim ⟨2, ![65536, 784]⟩ ![0, 1] h5 (broadcastInDim ⟨2, ![1, 784]⟩ ![1] h4
      (shapeCast ⟨1, ![784]⟩ (broadcastInDim ⟨2, ![196, 4]⟩ ![0, 1] h2 (shapeCast ⟨2, ![1, 4]⟩ v h1)) h3)) = tile v := by
  funext i
  obtain ⟨r, c, rfl⟩ : ∃ (r : Fin 65536) (c : Fin 784), i = ix2 r c := ⟨i 0, i 1, eq_ix2 i⟩
  have hc : c.val < 784 := c.isLt
  refine (broadcastInDim_apply _ h5 _ _ (ix2 (0 : Fin 1) c) (fun a => match a with
    | ⟨0, _⟩ => by show 0 = if (1 : Nat) = 1 then 0 else r.val; rw [if_pos rfl]
    | ⟨1, _⟩ => by show c.val = if (784 : Nat) = 1 then 0 else c.val; rw [if_neg (by decide)])).trans ?_
  refine (broadcastInDim_apply _ h4 _ _ (ix1 c) (fun a => match a with
    | ⟨0, _⟩ => by show c.val = if (784 : Nat) = 1 then 0 else c.val; rw [if_neg (by decide)])).trans ?_
  refine (shapeCast_apply _ h3 (ix1 c) (ix2 (⟨c.val / 4, by omega⟩ : Fin 196) (lane c.val)) ?_).trans ?_
  · rewrite [Shape.rowMajor_val_two, Shape.rowMajor_val_one]
    show c.val / 4 * 4 + c.val % 4 = c.val
    omega
  refine (broadcastInDim_apply _ h2 _ _ (ix2 (0 : Fin 1) (lane c.val)) (fun a => match a with
    | ⟨0, _⟩ => by show 0 = if (1 : Nat) = 1 then 0 else c.val / 4; rw [if_pos rfl]
    | ⟨1, _⟩ => by show c.val % 4 = if (4 : Nat) = 1 then 0 else c.val % 4; rw [if_neg (by decide)])).trans ?_
  exact shapeCast_a_1a_apply v h1 0 (lane c.val)

end Cert.Tile
-- ==== Proof.KernelArray.lean ====
/-
  The array the kernel's region leaves.

  The region has eight grid points.  At each it loads the one template row of length 1024 (the same row at every
  point) and stores it to every row of a block of 6272 rows; point `t` writes its block back to rows
  `6272 t … 6272 t + 6271` of the [50176, 1024] array.  So whatever row the region finds, the array ends with
  that row in each of its 50176 rows (`Cert.Tile.rows`): each point writes the block of that array under its
  rectangle, and the eight rectangles cover all rows (row `r` belongs to point `r / 6272`).
-/
import proofs.«143160_j65481071407377_2_alg».proof.Proof.Gen.KernelIdeal.Frame
import proofs.«143160_j65481071407377_2_alg».proof.Proof.Tile
import Idealize.ShloMosaic.Lib.Pipeline.Value
import Idealize.ShloMosaic.Lib.ValueIdx

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]

variable (m : (ℓ : Loc nD τ sig) → Buf (Elt F) ℓ)

theorem zero_offsets : (![0, 0] : Fin 2 → Nat) = fun _ => 0 := funext fun a => by fin_cases a <;> rfl

/-- What the body stores, at an entry of the block: the loaded row at the entry's column. -/
theorem stored_apply (x0 : Vec F S1x1024 .f32) (j : S6272x1024.Idx) :
    k0_pay1 x0 j = x0 (ix2 (0 : Fin 1) (j 1)) := by
  unfold k0_pay1
  exact Cert.Tile.block_apply x0 _ _ j

/-- The block indices of the two windows at a grid point: the template row's block is always the one block of
    its array, and the output's block at point `t` is block `t` down the rows, the one block across. -/
theorem block_indices : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- What point `t` writes back is the block under its rectangle of the array with the template row in every row. -/
theorem flushed_eq (c : Dev nD) (t : Fin cfg0.N) :
    (dats m 0 c).flushed 1 t = ((cfg0.win 1).blk t).view.read (Elt F) (Cert.Tile.rows (V m c main_v13)) := by
  show (cfg0.win 1).cut (grid0.coords t) ((dats m 0 c).after 1 t) = _
  rw [after0_1]
  unfold out0_1
  rw [View.canon_unit_zero zero_offsets]
  simp only [View.ld_unit_zero (S := S1x1024) zero_offsets]
  obtain ⟨e0, e1, e2, e3⟩ := block_indices t
  funext j
  show k0_pay1 (iblk m c 0 t) j = V m c main_v13 (ix2 (0 : Fin 1) ((((cfg0.win 1).blk t).view.emb j) 1))
  refine (stored_apply (iblk m c 0 t) j).trans ?_
  show V m c main_v13 (((cfg0.win 0).blk t).view.emb (ix2 (0 : Fin 1) (j 1))) = _
  refine congrArg (V m c main_v13) ?_
  funext a; apply Fin.ext
  match a with
  | ⟨0, _⟩ => show win0_0.index t (0 : Fin 2) * 1 + 1 * 0 = 0; omega
  | ⟨1, _⟩ => show win0_0.index t (1 : Fin 2) * 1024 + 1 * (j 1).val = win0_1.index t (1 : Fin 2) * 1024 + 1 * (j 1).val; omega

/-- An entry of the array is in point `t`'s block iff each coordinate is in the block's range on its axis. -/
theorem mem_block (t : Fin cfg0.N) (i : S50176x1024.Idx) :
    i ∈ ((cfg0.win 1).blk t).view.set ↔ ∀ a : Fin 2, win0_1.index t a * S6272x1024.size a ≤ (i a).val ∧ (i a).val < win0_1.index t a * S6272x1024.size a + S6272x1024.size a := by
  show i ∈ ((View.whole main_v14).slice (win0_1.rect t)).set ↔ _
  rw [View.set_slice_whole, Rect.mem_set_unit]
  exact Iff.rfl

/-- Every entry is in the block of the point its row belongs to. -/
theorem covered (i : S50176x1024.Idx) :
    ∃ t : Fin cfg0.N, (cfg0.win 1).flush t = true ∧ i ∈ ((cfg0.win 1).blk t).view.set := by
  have hi0 : (i 0).val < 50176 := (i 0).isLt
  have hi1 : (i 1).val < 1024 := (i 1).isLt
  have hN : (i 0).val / 6272 < cfg0.N := by show _ < grid0.N; rw [N_0]; omega
  refine ⟨⟨(i 0).val / 6272, hN⟩, flush0_1 _, ?_⟩
  obtain ⟨e0, e1, e2, e3⟩ := block_indices ⟨(i 0).val / 6272, hN⟩
  have e2' : win0_1.index ⟨(i 0).val / 6272, hN⟩ (0 : Fin 2) = (i 0).val / 6272 := e2
  rw [mem_block]
  intro a
  match a with
  | ⟨0, _⟩ => show win0_1.index ⟨(i 0).val / 6272, hN⟩ (0 : Fin 2) * 6272 ≤ (i 0).val ∧ (i 0).val < win0_1.index ⟨(i 0).val / 6272, hN⟩ (0 : Fin 2) * 6272 + 6272; omega
  | ⟨1, _⟩ => show win0_1.index ⟨(i 0).val / 6272, hN⟩ (1 : Fin 2) * 1024 ≤ (i 1).val ∧ (i 1).val < win0_1.index ⟨(i 0).val / 6272, hN⟩ (1 : Fin 2) * 1024 + 1024; omega

/-- The array after the region: the row the region found, in every row. -/
theorem final (c : Dev nD) : (dats m 0 c).arrAt 1 cfg0.N = Cert.Tile.rows (V m c main_v13) :=
  (dats m 0 c).arrAt_eq_of_cover 1 _ (fun t _ => flushed_eq m c t) covered

end Cert.KernelIdeal.Rows

end
-- ==== Proof.KernelResult.lean ====
/-
  The kernel program's result as a function of its arguments.

  Before the region the host computes the four-vector `fourVec ry rl` — `cos ry₀ · cos (Σ rl)` followed by
  `cos ry₁, cos ry₂, cos ry₃` — and lays it out as the template row (`Cert.Tile.template_eq`).  The region
  copies that row to all 50176 rows of the flat array (`Rows.final`), and the one host line after the region
  re-reads the flat array row-major as [65536, 784] (`Cert.Tile.unflatten_eq`).  So the result is
  `Cert.Tile.tile (fourVec ry rl)`: entry `(r, c)` is entry `c mod 4` of the four-vector.
-/
import proofs.«143160_j65481071407377_2_alg».proof.Proof.KernelArray
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- The four numbers both programs repeat: `cos ry₀ · cos (Σ rl)`, then `cos ry₁, cos ry₂, cos ry₃`. -/
def fourVec (ry : (⟨S4, .f32⟩ : BufTy).Contents (Elt F)) (rl : (⟨S8, .f32⟩ : BufTy).Contents (Elt F)) :
    (⟨S4, .f32⟩ : BufTy).Contents (Elt F) :=
  concatenate S4 0 [⟨S1, (broadcastInDim S1 ![] bcast_S_S1 (mulf (Host.cos (shapeCast _ (extractStridedSlice S1 ![0] ry slices_S4_S1_0) shapeCasts_S1_S_)) (Host.cos (Host.reduceAdd rl (constant S_ .f32 0x00000000#32) reducesTo_S8_S_d0 h_S_))))⟩, ⟨S3, (Host.cos (extractStridedSlice S3 ![1] ry slices_S4_S3_1))⟩] concatenates_S1_S3_S4_d0

variable (m : (ℓ : Loc nD τ sig) → Buf (Elt F) ℓ) (ρ : Dev nD → PrngReg)

/-- The row the region finds: the template row of the four-vector of the arguments. -/
theorem template (c : Dev nD) :
    V m c main_v13 = Cert.Tile.row (fourVec (m ((c : Thread nD τ).loc main_arg1)) (m ((c : Thread nD τ).loc main_arg2))) := by
  refine Eq.trans ?_ (Cert.Tile.template_eq _ shapeCasts_S4_S1x4 bcast_S1x4_S256x4_0_1 shapeCasts_S256x4_S1024 shapeCasts_S1024_S1x1024)
  show StableHlo.after hostOps0 (fun b => m (c, b)) (Proc.devRef .tc main_v13) = _
  after_results
  rfl

/-- The result buffer after the host line that follows the region: the flat array re-read as [65536, 784]. -/
theorem tail (c : Dev nD) :
    Pipeline.afterTail₀ cfgs (dats m) 0 (V0 m) [hostOps1] c main_v15
      = shapeCast S65536x784 ((dats m 0 c).arrAt 1 cfg0.N) shapeCasts_S50176x1024_S65536x784 := by
  unfold Pipeline.afterTail₀
  show StableHlo.after hostOps1 _ (Proc.devRef .tc main_v15) = _
  after_results
  funext i
  show shapeCast S65536x784 (Pipeline.withArrays spec0 c (V0 m c) (fun w => (dats m 0 c).arrAt w cfg0.N)
    (Proc.devRef .tc (Pipeline.arrRef spec0 1))) shapeCasts_S50176x1024_S65536x784 i = _
  rw [Pipeline.withArrays_arr spec0 launch0.win.arr_inj c (V0 m c) (fun w => (dats m 0 c).arrAt w cfg0.N) 1]

/-- The result array: entry `(r, c)` is entry `c mod 4` of the four-vector of the arguments. -/
theorem result (c : Dev nD) :
    Pipeline.afterTail₀ cfgs (dats m) 0 (V0 m) [hostOps1] c main_v15
      = Cert.Tile.tile (fourVec (m ((c : Thread nD τ).loc main_arg1)) (m ((c : Thread nD τ).loc main_arg2))) := by
  rw [tail, Rows.final, template]
  exact Cert.Tile.unflatten_eq _ shapeCasts_S50176x1024_S65536x784

/-- Every weakly fair execution of the kernel program terminates with the result buffer at the four-vector of the
    arguments repeated with period four, and the arguments unchanged. -/
theorem run : θ_run defs (onTc (τ := τ) (main (F := F))) ⟨m, fun _ => 0, ρ⟩ fun r => ∀ c : Dev nD,
      r.2.mem ((c.tc : Thread nD τ).loc main_v15)
        = Cert.Tile.tile (fourVec (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v15 (Pipeline.mem_restRefs_of main_v15 (by decide) (by decide))).trans (result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Result

end
-- ==== Proof.Reference.lean ====
/-
  The reference program's result as a function of its arguments.

  The reference computes the same four numbers by the same operations — `cos ry₀ · cos (Σ rl)`, then
  `cos ry₁, cos ry₂, cos ry₃` (`four_eq`: the two programs' terms for them are one term) — writes them 196 times
  into a row of length 784 and repeats that row 65536 times.  Entry `(r, c)` is therefore entry `c mod 4` of the
  four-vector (`Cert.Tile.reference_eq`), which is what the kernel program leaves (`Cert.KernelIdeal.Result.run`).
-/
import proofs.«143160_j65481071407377_2_alg».proof.Proof.Gen.ReferenceIdeal.Run
import proofs.«143160_j65481071407377_2_alg».proof.Proof.Gen.ReferenceIdeal.Read
import proofs.«143160_j65481071407377_2_alg».proof.Proof.KernelResult

noncomputable section

namespace Cert.ReferenceIdeal.Result

open Cert.ReferenceIdeal Cert.ReferenceIdeal.Gen
open Idealize.ShloMosaic Idealize.ShloMosaic.TcCoe Idealize.SL.Sem

variable {F : FTy → Type} [FloatOps F]

/-- The reference's four numbers are the kernel program's: the same operations of the same arguments. -/
theorem four_eq (ry : (⟨S4, .f32⟩ : BufTy).Contents (Elt F)) (rl : (⟨S8, .f32⟩ : BufTy).Contents (Elt F)) :
    Read.val_main_v9 (F := F) ry rl = Cert.KernelIdeal.Result.fourVec (F := F) ry rl := rfl

/-- The reference's result: entry `(r, c)` is entry `c mod 4` of the four-vector. -/
theorem result (ry : (⟨S4, .f32⟩ : BufTy).Contents (Elt F)) (rl : (⟨S8, .f32⟩ : BufTy).Contents (Elt F)) :
    Read.val_main_v14 (F := F) ry rl = Cert.Tile.tile (Cert.KernelIdeal.Result.fourVec (F := F) ry rl) := by
  rw [← four_eq]
  unfold Read.val_main_v14 Read.val_main_v13 Read.val_main_v12 Read.val_main_v11 Read.val_main_v10
  exact Cert.Tile.reference_eq _ shapeCasts_S4_S1x4 bcast_S1x4_S196x4_0_1 shapeCasts_S196x4_S784 bcast_S784_S1x784_1
    bcast_S1x784_S65536x784_0_1

end Cert.ReferenceIdeal.Result

end
-- ==== Proof.lean ====
/-
  Both programs compute four numbers from the angles — `cos ry₀ · cos (Σ rl)`, `cos ry₁`, `cos ry₂`, `cos ry₃` —
  by the same operations, never reading `x`, and fill a [65536, 784] array with them, entry `(r, c)` holding
  number `c mod 4`.

  The reference writes the four numbers 196 times into a row and repeats the row.  The kernel program writes them
  256 times into a row of length 1024, copies that row (eight blocks of 6272 rows) into a [50176, 1024] array, and
  re-reads that array row-major as [65536, 784]: entry `(r, c)` is at flat position `784 r + c`, in column
  `(784 r + c) mod 1024`, and `((784 r + c) mod 1024) mod 4 = c mod 4` because 4 divides 784 and 1024.
  The two results are the same rearrangement (`Cert.Tile.tile`) of the same four-vector, for entries of any kind;
  no law of arithmetic is used, so finiteness of the inputs is not needed for the equality.

  The idealized kernel is the kernel's own text read over the extended reals (no operation was rewritten), so
  `preserves` has nothing to state.  Each frame is the program's run with the result forgotten.
-/
import proofs.«143160_j65481071407377_2_alg».proof.Defs
import proofs.«143160_j65481071407377_2_alg».proof.Proof.Gen.Kernel
import proofs.«143160_j65481071407377_2_alg».proof.Proof.Gen.Kernel.Frame
import proofs.«143160_j65481071407377_2_alg».proof.Proof.Gen.KernelIdeal
import proofs.«143160_j65481071407377_2_alg».proof.Proof.Gen.KernelIdeal.Frame
import proofs.«143160_j65481071407377_2_alg».proof.Proof.Gen.ReferenceIdeal
import proofs.«143160_j65481071407377_2_alg».proof.Proof.Gen.ReferenceIdeal.Run
import proofs.«143160_j65481071407377_2_alg».proof.Proof.Gen.ReferenceIdeal.Read
import proofs.«143160_j65481071407377_2_alg».proof.Proof.Gen.Pre_finite_inputs
import proofs.«143160_j65481071407377_2_alg».proof.Proof.KernelResult
import proofs.«143160_j65481071407377_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program ends with the four-vector of its arguments repeated with period four; the reference, run on
    the same arguments, ends with the same array. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2]
  exact (Cert.ReferenceIdeal.Read.val_main_v14_eq _ _).trans (Cert.ReferenceIdeal.Result.result _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
